-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x1600000 : Shape := ⟨2, ![2, 1600000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S128 .f32) (main_arg9 : FVec F S128x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x16 .f32) (main_arg1 : IVec S2x1600000 32) (main_arg2 : IVec S50000 32) (main_arg3 : FVec F S16x64 .f32) (main_arg4 : FVec F S64 .f32) (main_arg5 : FVec F S64x64 .f32) (main_arg6 : FVec F S64 .f32) (main_arg7 : FVec F S64x128 .f32) (main_arg8 : FVec F S128 .f32) (main_arg9 : FVec F S128x10 .f32) (main_arg10 : FVec F S10 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x16 : Shape := ⟨2, ![50000, 16]⟩
abbrev S2x1600000 : Shape := ⟨2, ![2, 1600000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S10000x16 : Shape := ⟨2, ![10000, 16]⟩
abbrev S10000x64 : Shape := ⟨2, ![10000, 64]⟩
abbrev S1650000x64 : Shape := ⟨2, ![1650000, 64]⟩
abbrev S1x64 : Shape := ⟨2, ![1, 64]⟩
abbrev S512 : Shape := ⟨1, ![512]⟩
abbrev S50000x1 : Shape := ⟨2, ![50000, 1]⟩
abbrev S512x64 : Shape := ⟨2, ![512, 64]⟩
abbrev S512x1 : Shape := ⟨2, ![512, 1]⟩
abbrev S1x128 : Shape := ⟨2, ![1, 128]⟩
abbrev S1x10 : Shape := ⟨2, ![1, 10]⟩
abbrev S512x10 : Shape := ⟨2, ![512, 10]⟩
abbrev S512x128 : Shape := ⟨2, ![512, 128]⟩

abbrev nBuf : Space → Nat
  | .hbm => 108
  | .vmem => 26
  | .smem => 0
  | _ => 0

abbrev bufTy : (tb : Table) → Fin (tcTables nBuf tb) → BufTy
  | .hbm, ⟨0, _⟩ => ⟨S50000x16, .f32⟩
  | .hbm, ⟨1, _⟩ => ⟨S2x1600000, .i32⟩
  | .hbm, ⟨2, _⟩ => ⟨S50000, .i32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S50000, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S_, .f32⟩
  | .hbm, ⟨29, _⟩ => ⟨S1650000, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x64, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x64, .f32⟩
  | .hbm, ⟨61, _⟩ => ⟨S1650000x1, .f32⟩
  | .hbm, ⟨62, _⟩ => ⟨S1650000x64, .f32⟩
  | .hbm, ⟨63, _⟩ => ⟨S1650000x64, .f32⟩
  | .hbm, ⟨64, _⟩ => ⟨S_, .f32⟩
  | .hbm, ⟨65, _⟩ => ⟨S50000x64, .f32⟩
  | .hbm, ⟨66, _⟩ => ⟨S1650000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x64, .f32⟩
  | .hbm, ⟨80, _⟩ => ⟨S1650000x1, .f32⟩
  | .hbm, ⟨81, _⟩ => ⟨S1650000x64, .f32⟩
  | .hbm, ⟨82, _⟩ => ⟨S1650000x64, .f32⟩
  | .hbm, ⟨83, _⟩ => ⟨S_, .f32⟩
  | .hbm, ⟨84, _⟩ => ⟨S50000x64, .f32⟩
  | .hbm, ⟨85, _⟩ => ⟨S1650000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S512, .f32⟩
  | .hbm, ⟨93, _⟩ => ⟨S50000x1, .i32⟩
  | .hbm, ⟨94, _⟩ => ⟨S512, .f32⟩
  | .hbm, ⟨95, _⟩ => ⟨S_, .f32⟩
  | .hbm, ⟨96, _⟩ => ⟨S512x64, .f32⟩
  | .hbm, ⟨97, _⟩ => ⟨S50000x1, .i32⟩
  | .hbm, ⟨98, _⟩ => ⟨S512x64, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512x1, .f32⟩
  | .hbm, ⟨103, _⟩ => ⟨S512x64, .f32⟩
  | .hbm, ⟨104, _⟩ => ⟨S512x64, .f32⟩
  | .hbm, ⟨105, _⟩ => ⟨S1x128, .f32⟩
  | .hbm, ⟨106, _⟩ => ⟨S1x10, .f32⟩
  | .hbm, ⟨107, _⟩ => ⟨S512x10, .f32⟩
  | .local _ .vmem, ⟨0, _⟩ => ⟨S10000x16, .f32⟩
  | .local _ .vmem, ⟨1, _⟩ => ⟨S10000x16, .f32⟩
  | .local _ .vmem, ⟨2, _⟩ => ⟨S16x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S512x64, .f32⟩
  | .local _ .vmem, ⟨21, _⟩ => ⟨S64x128, .f32⟩
  | .local _ .vmem, ⟨22, _⟩ => ⟨S1x128, .f32⟩
  | .local _ .vmem, ⟨23, _⟩ => ⟨S128x10, .f32⟩
  | .local _ .vmem, ⟨24, _⟩ => ⟨S1x10, .f32⟩
  | .local _ .vmem, ⟨25, _⟩ => ⟨S512x10, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S128_S1x128 : S128.ShapeCasts S1x128
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x16_S16x64_S10000x64_1_0_0_1_n_n_wf : DotDims.WF S10000x16 S16x64 S10000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S10000x64_S64x64_S10000x64_1_0_0_1_n_n_wf : DotDims.WF S10000x64 S64x64 S10000x64 [1] [0] [0] [1] [] []
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .f32 = 32 ∨ (Rect.block (s := S50000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S512x10.size a
  hwx4_5 : ∀ i : grid4.Coords, EltTy.bits .f32 = 32 ∨ (Rect.block (s := S512x10) S512x10.size (cc4_transform_5 i) (hinb4_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S512x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x16 : Shape := ⟨2, ![50000, 16]⟩
abbrev S2x1600000 : Shape := ⟨2, ![2, 1600000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S512 : Shape := ⟨1, ![512]⟩
abbrev S50000x1 : Shape := ⟨2, ![50000, 1]⟩
abbrev S512x64 : Shape := ⟨2, ![512, 64]⟩
abbrev S512x1 : Shape := ⟨2, ![512, 1]⟩
abbrev S512x128 : Shape := ⟨2, ![512, 128]⟩
abbrev S1x128 : Shape := ⟨2, ![1, 128]⟩
abbrev S512x10 : Shape := ⟨2, ![512, 10]⟩
abbrev S1x10 : Shape := ⟨2, ![1, 10]⟩

abbrev nBuf : Space → Nat
  | .hbm => 121
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x1600000, .i32⟩
  | .hbm, ⟨2, _⟩ => ⟨S50000, .i32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S50000, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S_, .f32⟩
  | .hbm, ⟨29, _⟩ => ⟨S1650000, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x64, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x64, .f32⟩
  | .hbm, ⟨61, _⟩ => ⟨S1650000x1, .f32⟩
  | .hbm, ⟨62, _⟩ => ⟨S1650000x64, .f32⟩
  | .hbm, ⟨63, _⟩ => ⟨S1650000x64, .f32⟩
  | .hbm, ⟨64, _⟩ => ⟨S_, .f32⟩
  | .hbm, ⟨65, _⟩ => ⟨S50000x64, .f32⟩
  | .hbm, ⟨66, _⟩ => ⟨S1650000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S1650000, .i32⟩
  | .hbm, ⟨77, _⟩ => ⟨S1650000, .i1⟩
  | .hbm, ⟨78, _⟩ => ⟨S_, .i32⟩
  | .hbm, ⟨79, _⟩ => ⟨S1650000, .i32⟩
  | .hbm, ⟨80, _⟩ => ⟨S1650000, .i32⟩
  | .hbm, ⟨81, _⟩ => ⟨S1650000, .i32⟩
  | .hbm, ⟨82, _⟩ => ⟨S1650000x1, .i32⟩
  | .hbm, ⟨83, _⟩ => ⟨S1650000x64, .f32⟩
  | .hbm, ⟨84, _⟩ => ⟨S1650000x1, .f32⟩
  | .hbm, ⟨85, _⟩ => ⟨S1650000x64, .f32⟩
  | .hbm, ⟨86, _⟩ => ⟨S1650000x64, .f32⟩
  | .hbm, ⟨87, _⟩ => ⟨S_, .f32⟩
  | .hbm, ⟨88, _⟩ => ⟨S50000x64, .f32⟩
  | .hbm, ⟨89, _⟩ => ⟨S1650000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S512, .f32⟩
  | .hbm, ⟨101, _⟩ => ⟨S50000x1, .i32⟩
  | .hbm, ⟨102, _⟩ => ⟨S512, .f32⟩
  | .hbm, ⟨103, _⟩ => ⟨S_, .f32⟩
  | .hbm, ⟨104, _⟩ => ⟨S512x64, .f32⟩
  | .hbm, ⟨105, _⟩ => ⟨S50000x1, .i32⟩
  | .hbm, ⟨106, _⟩ => ⟨S512x64, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512x1, .f32⟩
  | .hbm, ⟨111, _⟩ => ⟨S512x64, .f32⟩
  | .hbm, ⟨112, _⟩ => ⟨S512x64, .f32⟩
  | .hbm, ⟨113, _⟩ => ⟨S512x128, .f32⟩
  | .hbm, ⟨114, _⟩ => ⟨S1x128, .f32⟩
  | .hbm, ⟨115, _⟩ => ⟨S512x128, .f32⟩
  | .hbm, ⟨116, _⟩ => ⟨S512x128, .f32⟩
  | .hbm, ⟨117, _⟩ => ⟨S512x10, .f32⟩
  | .hbm, ⟨118, _⟩ => ⟨S1x10, .f32⟩
  | .hbm, ⟨119, _⟩ => ⟨S512x10, .f32⟩
  | .hbm, ⟨120, _⟩ => ⟨S512x10, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_cst : Ref sig .tc := ⟨.hbm, 94, rfl⟩
abbrev main_call1_v0 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x16_S16x64_S50000x64_1_0_0_1_n_n_wf : DotDims.WF S50000x16 S16x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x10_S512x10_1_0_0_1_n_n_wf : DotDims.WF S512x128 S128x10 S512x10 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel program's run with its RESULT named.  The program is five kernel launches among four stretches
  of host operations; the contents of every buffer at each boundary are a fold from the launch memory (host operations
  applied in order; a launch replacing its output array by what its grid points wrote back).  Every weakly fair
  execution terminates, nothing faulting, with every buffer that outlives a launch at the last boundary's contents:
  in particular the result buffer at the last boundary's contents of it, and each argument as launched.
-/
import proofs.«107864_j73959336837366_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the several-launch run theorem are found by unifying its conclusion with this one, which
-- takes unfolding plain definitions in a metavariable's type
set_option backward.isDefEq.respectTransparency.types false in
/-- From any memory with zero counters every weakly fair execution of the program terminates, nothing faulting, with
    the result buffer at the last boundary's contents `W9` of it and every argument array as launched: the last thread
    state holds every buffer that outlives a launch at `W9`, and the final state is read against it. -/
theorem run : θ_run defs (onTc (τ := τ) (main (F := F))) ⟨m, fun _ => 0, ρ⟩ (fun r => ∀ c : Dev nD,
      r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Named

end
-- ==== Proof.Dense.lean ====
/-
  The three dense stages of the network, each as ONE function of whole arrays over the extended reals, index by
  index.  A graph-convolution layer is  h ↦ max(A·(h·W) + b, 0)  with A the normalised adjacency (a gather along the
  edges' sources, a scaling by the edge weights and a sum into the edges' targets); the read-out is a per-graph mean
  followed by two affine maps.  The adjacency and the mean are applied by the same host operations on both sides and
  are never opened; what differs between the two programs is only how the dense stages below are computed
  (block by block over the rows on one side, in one piece on the other), and over the extended reals each of them
  is the same function whatever the blocking:

  * `rowsTimes x w`   — the product x·w: entry (r, c) is Σ_k x[r, k] · w[k, c];
  * `addRowMax z a b` — max(a + b, z) with the one-row array b added to every row of a (z = 0: bias then relu);
  * `addRow a b`      — a + b with the one-row array b added to every row of a;
  * `asRow b`         — a vector of N entries read as the one-row array [1, N].

  Sums over k are finite sums in the commutative monoid of extended reals, so no order or grouping is chosen.
-/
import Idealize.ShloMosaic.PureOps.Ideal
import Idealize.ShloMosaic.Lib.ValueIdx
import Idealize.ShloMosaic.PureOps.Ideal.Laws

noncomputable section

namespace Cert.Dense

open Idealize.ShloMosaic Idealize.ShloMosaic.ValueIdx

/-- The product x·w of an M×K by a K×N array: entry (r, c) is Σ_k x[r, k] · w[k, c]. -/
def rowsTimes (M K N : Nat) (x : FVec Ideal ⟨2, ![M, K]⟩ .f32) (w : FVec Ideal ⟨2, ![K, N]⟩ .f32) :
    FVec Ideal ⟨2, ![M, N]⟩ .f32 :=
  fun i => ∑ k : Fin K, x (ix2 (i 0) k) * w (ix2 k (i 1))

/-- a + b, the single row b added to every row of a. -/
def addRow (M N : Nat) (a : FVec Ideal ⟨2, ![M, N]⟩ .f32) (b : FVec Ideal ⟨2, ![1, N]⟩ .f32) :
    FVec Ideal ⟨2, ![M, N]⟩ .f32 :=
  fun i => a i + b (ix2 (0 : Fin 1) (i 1))

/-- A vector of N entries as the one-row array [1, N]: entry (0, c) is b[c]. -/
def asRow (N : Nat) (b : FVec Ideal ⟨1, ![N]⟩ .f32) : FVec Ideal ⟨2, ![1, N]⟩ .f32 :=
  fun i => b (ix1 (i 1))

theorem asRow_apply (N : Nat) (b : FVec Ideal ⟨1, ![N]⟩ .f32) (r : Fin 1) (c : Fin N) : asRow N b (ix2 r c) = b (ix1 c) := rfl

/-- max(a + b, z), the single row b added to every row of a and the result cut off below at z. -/
def addRowMax (M N : Nat) (z : Ideal .f32) (a : FVec Ideal ⟨2, ![M, N]⟩ .f32) (b : FVec Ideal ⟨2, ![1, N]⟩ .f32) :
    FVec Ideal ⟨2, ![M, N]⟩ .f32 :=
  fun i => max (a i + b (ix2 (0 : Fin 1) (i 1))) z

theorem rowsTimes_apply (M K N : Nat) (x : FVec Ideal ⟨2, ![M, K]⟩ .f32) (w : FVec Ideal ⟨2, ![K, N]⟩ .f32)
    (r : Fin M) (c : Fin N) : rowsTimes M K N x w (ix2 r c) = ∑ k : Fin K, x (ix2 r k) * w (ix2 k c) := rfl

theorem addRow_apply (M N : Nat) (a : FVec Ideal ⟨2, ![M, N]⟩ .f32) (b : FVec Ideal ⟨2, ![1, N]⟩ .f32)
    (r : Fin M) (c : Fin N) : addRow M N a b (ix2 r c) = a (ix2 r c) + b (ix2 (0 : Fin 1) c) := rfl

theorem addRowMax_apply (M N : Nat) (z : Ideal .f32) (a : FVec Ideal ⟨2, ![M, N]⟩ .f32) (b : FVec Ideal ⟨2, ![1, N]⟩ .f32)
    (r : Fin M) (c : Fin N) : addRowMax M N z a b (ix2 r c) = max (a (ix2 r c) + b (ix2 (0 : Fin 1) c)) z := rfl

/-- A contraction over ONE axis of extent K whose operand indices at the output index (r, c) and the contraction index k
    are (r, k) on the left and (k, c) on the right — a plain rows-by-columns product — is the sum over k : Fin K:
    the contraction's index type is re-indexed by its one coordinate. -/
theorem sum_contr {M K N : Nat} (d : DotDims ⟨2, ![M, K]⟩ ⟨2, ![K, N]⟩ ⟨2, ![M, N]⟩) (hrank : d.contr.rank = 1)
    (hsize : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal ⟨2, ![M, K]⟩ .f32) (r : FVec Ideal ⟨2, ![K, N]⟩ .f32) (j : (⟨2, ![M, N]⟩ : Shape).Idx) :
    ∑ q : d.contr.Idx, l (d.lhsIdx j q) * r (d.rhsIdx j q) = rowsTimes M K N l r j := by
  unfold rowsTimes
  rw [← Equiv.sum_comp (contrEquiv1 d K hrank hsize).symm]
  refine Finset.sum_congr rfl fun k _ => ?_
  have hk := contrEquiv1_symm_val d K hrank hsize k
  have el : d.lhsIdx j ((contrEquiv1 d K hrank hsize).symm k) = ix2 (j 0) k := funext fun a => Fin.ext (by
    match a with
    | ⟨0, _⟩ => exact hl0 _ _
    | ⟨1, _⟩ => exact (hl1 _ _).trans hk)
  have er : d.rhsIdx j ((contrEquiv1 d K hrank hsize).symm k) = ix2 k (j 1) := funext fun a => Fin.ext (by
    match a with
    | ⟨0, _⟩ => exact (hr0 _ _).trans hk
    | ⟨1, _⟩ => exact hr1 _ _)
  rw [el, er]
  rfl

end Cert.Dense

end
-- ==== Proof.Rows.lean ====
/-
  A vector of N entries reshaped to the one-row array [1, N]: both are laid out row-major, so entry (0, c) of the row is
  entry c of the vector.
-/
import proofs.«107864_j73959336837366_1_alg».proof.Proof.Dense
import Idealize.ShloMosaic.Lib.Pipeline.Value

noncomputable section

namespace Cert.Dense

open Idealize.ShloMosaic Idealize.ShloMosaic.ValueIdx

/-- The reshape [N] → [1, N] is `asRow`: the row-major position of (0, c) in [1, N] is c. -/
theorem shapeCast_asRow (N : Nat) (x : FVec Ideal ⟨1, ![N]⟩ .f32) (h : (⟨1, ![N]⟩ : Shape).ShapeCasts ⟨2, ![1, N]⟩) :
    shapeCast ⟨2, ![1, N]⟩ x h = asRow N x := by
  funext i
  unfold asRow
  refine shapeCast_apply x h i (ix1 (i 1)) ?_
  have h1 : (i 0).val < 1 := (i 0).isLt
  have h0 : (i 0).val = 0 := by omega
  rw [Shape.rowMajor_val_one, Shape.rowMajor_val_two, h0]
  show (i 1).val = 0 * N + (i 1).val
  omega

end Cert.Dense

end
-- ==== Proof.Product0.lean ====
/-
  The product h·W of launch 0, block by block.  The rows of h (50000 of them) are cut into five blocks of 10000 rows;
  grid point t holds rows 10000·t … 10000·t + 9999 of h and the whole of W (16 by 64), multiplies them into a zero
  accumulator and writes the 10000 by 64 result back as rows 10000·t … of the output.  Entry (r, c) of a block's product
  is Σ_k h[10000·t + r, k] · W[k, c]: it depends on ONE row of h and one column of W, so the five blocks are the five
  row bands of the one product h·W, and since the bands tile the rows the output array ends holding h·W.
-/
import proofs.«107864_j73959336837366_1_alg».proof.Proof.Gen.KernelIdeal.Frame
import proofs.«107864_j73959336837366_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Product0

open Idealize.ShloMosaic Idealize.ShloMosaic.TcCoe Idealize.SL.Sem Idealize.ShloMosaic.ValueIdx
open Idealize.ShloMosaic.Pipeline (Dat)
open Cert.KernelIdeal Cert.KernelIdeal.Gen Cert.Dense

/-! ## The block product's operand indices: (r, k) on the left, (k, c) on the right -/

theorem lhs_row (j : S10000x64.Idx) (q : dot_S10000x16_S16x64_S10000x64_1_0_0_1_n_n.contr.Idx) :
    (dot_S10000x16_S16x64_S10000x64_1_0_0_1_n_n.lhsIdx j q 0).val = (j 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs_col (j : S10000x64.Idx) (q : dot_S10000x16_S16x64_S10000x64_1_0_0_1_n_n.contr.Idx) :
    (dot_S10000x16_S16x64_S10000x64_1_0_0_1_n_n.lhsIdx j q 1).val = (q ⟨0, by decide⟩).val :=
  dot_S10000x16_S16x64_S10000x64_1_0_0_1_n_n.lhsIdx_val_of_single rfl j q
theorem rhs_row (j : S10000x64.Idx) (q : dot_S10000x16_S16x64_S10000x64_1_0_0_1_n_n.contr.Idx) :
    (dot_S10000x16_S16x64_S10000x64_1_0_0_1_n_n.rhsIdx j q 0).val = (q ⟨0, by decide⟩).val :=
  dot_S10000x16_S16x64_S10000x64_1_0_0_1_n_n.rhsIdx_val_of_single rfl j q
theorem rhs_col (j : S10000x64.Idx) (q : dot_S10000x16_S16x64_S10000x64_1_0_0_1_n_n.contr.Idx) :
    (dot_S10000x16_S16x64_S10000x64_1_0_0_1_n_n.rhsIdx j q 1).val = (j 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- What one grid point computes from its two loaded blocks: the 10000 by 64 product of the row block by the weights
    (the change of float format on each operand is the identity on extended reals, the accumulator starts at zero). -/
theorem block_product (hb : Vec Ideal S10000x16 .f32) (w : Vec Ideal S16x64 .f32) :
    k0_pay1 hb w = rowsTimes 10000 16 64 hb w := by
  funext j
  unfold k0_pay1
  refine (Ideal.matmul_constant_zero_apply dot_S10000x16_S16x64_S10000x64_1_0_0_1_n_n none _ _ j).trans ?_
  exact sum_contr dot_S10000x16_S16x64_S10000x64_1_0_0_1_n_n rfl rfl lhs_row lhs_col rhs_row rhs_col hb w j

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the five points: the row-block windows (input and output) sit at block (t, 0), the
    weights' window at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- WHAT POINT t WRITES BACK is block t (rows 10000·t …) of the one product of the two arrays as the launch finds them. -/
theorem flushed_eq (c : Dev nD) (t : Fin cfg0.N) :
    (dat0 V c).flushed 2 t
      = ((cfg0.win 2).blk t).view.read (Elt Ideal) (rowsTimes 50000 16 64 (V c main_arg0) (V c main_arg3)) := by
  show (cfg0.win 2).cut (grid0.coords t) ((dat0 V c).after 2 t) = _
  rw [after0_2]
  unfold out0_2
  rw [View.canon_unit_zero offset_zero]
  simp only [View.ld_unit_zero (S := S10000x16) offset_zero, View.ld_unit_zero (S := S16x64) offset_zero]
  rw [block_product]
  obtain ⟨e0, e1, e2, e3, e4, e5, e6⟩ := index_maps t
  funext j
  show rowsTimes 10000 16 64 (iblk0 V c 0 t) (iblk0 V c 1 t) j
     = rowsTimes 50000 16 64 (V c main_arg0) (V c main_arg3) (((cfg0.win 2).blk t).view.emb j)
  unfold rowsTimes
  refine Finset.sum_congr rfl fun k _ => ?_
  have hl : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 16 + 1 * k.val = k.val; omega
  have hr : ((cfg0.win 1).blk t).view.emb (ix2 k (j 1)) = ix2 k ((((cfg0.win 2).blk t).view.emb j) 1) := by
    funext a; apply Fin.ext
    match a with
    | ⟨0, _⟩ => show win0_1.index t (0 : Fin 2) * 16 + 1 * k.val = k.val; omega
    | ⟨1, _⟩ => show win0_1.index t (1 : Fin 2) * 64 + 1 * (j 1).val = win0_2.index t (1 : Fin 2) * 64 + 1 * (j 1).val; omega
  have el : iblk0 V c 0 t (ix2 (j 0) k) = V c main_arg0 (ix2 ((((cfg0.win 2).blk t).view.emb j) 0) k) := by
    show V c main_arg0 (((cfg0.win 0).blk t).view.emb (ix2 (j 0) k)) = _
    rw [hl]
    rfl
  have er : iblk0 V c 1 t (ix2 k (j 1)) = V c main_arg3 (ix2 k ((((cfg0.win 2).blk t).view.emb j) 1)) := by
    show V c main_arg3 (((cfg0.win 1).blk t).view.emb (ix2 k (j 1))) = _
    rw [hr]
    rfl
  rw [el, er]

/-- An index of the output array is in point t's block iff each coordinate is in the block's range on its axis. -/
theorem mem_block (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every row band is some point's: band b is point b's. -/
theorem band_point : ∀ b : Fin 5, ∃ t : Fin cfg0.N, win0_2.index t = ![b.val, 0] :=
  (by decide +kernel : ∀ b : Fin 5, ∃ t : Fin grid0.N, win0_2.index t = ![b.val, 0])

/-- The five row bands tile the output: row r is in band r / 10000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := band_point ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the launch is the product of the two input arrays as the launch finds them. -/
theorem final (c : Dev nD) :
    (dat0 V c).arrAt 2 cfg0.N = rowsTimes 50000 16 64 (V c main_arg0) (V c main_arg3) :=
  (dat0 V c).arrAt_eq_of_cover 2 _ (fun t _ => flushed_eq V c t) (covered)

end Cert.KernelIdeal.Product0

end
-- ==== Proof.RefProducts.lean ====
/-
  The reference's two large products as the row-by-column sum.  On the host a `dot_general` contracting the second axis
  of its left operand against the first of its right is, over the extended reals, Σ_q l(lhs index of (j, q)) · r(rhs index
  of (j, q)) over the contraction's own index type; its one contraction axis has the extent of the shared dimension, and
  at the output index (r, c) the operand indices are (r, k) and (k, c).  So it is the spec's `rowsTimes`.
-/
import proofs.«107864_j73959336837366_1_alg».proof.Proof.Gen.ReferenceIdeal.Read
import proofs.«107864_j73959336837366_1_alg».proof.Proof.Dense
import Idealize.ShloMosaic.PureOps.Ideal.Laws

set_option maxRecDepth 16384

noncomputable section

namespace Cert.ReferenceIdeal.Bridge

open Idealize.ShloMosaic Idealize.ShloMosaic.ValueIdx Cert.ReferenceIdeal Cert.ReferenceIdeal.Read Cert.Dense

/-- The first layer's product x·W1 (50000 by 16 times 16 by 64). -/
theorem dot_layer1 (l : FVec Ideal S50000x16 .f32) (r : FVec Ideal S16x64 .f32) :
    Host.dotGeneral dot_S50000x16_S16x64_S50000x64_1_0_0_1_n_n none l r = rowsTimes 50000 16 64 l r := by
  funext j
  simp only [Host.dotGeneral]
  rw [Ideal.dotGeneral_apply]
  exact sum_contr dot_S50000x16_S16x64_S50000x64_1_0_0_1_n_n rfl rfl lhs_main_v32_0 lhs_main_v32_1 rhs_main_v32_0 rhs_main_v32_1 l r j

/-- The second layer's product h·W2 (50000 by 64 times 64 by 64). -/
theorem dot_layer2 (l : FVec Ideal S50000x64 .f32) (r : FVec Ideal S64x64 .f32) :
    Host.dotGeneral dot_S50000x64_S64x64_S50000x64_1_0_0_1_n_n none l r = rowsTimes 50000 64 64 l r := by
  funext j
  simp only [Host.dotGeneral]
  rw [Ideal.dotGeneral_apply]
  exact sum_contr dot_S50000x64_S64x64_S50000x64_1_0_0_1_n_n rfl rfl lhs_main_v50_0 lhs_main_v50_1 rhs_main_v50_0 rhs_main_v50_1 l r j

end Cert.ReferenceIdeal.Bridge

end
-- ==== Proof.Chain03.lean ====
/-
  The kernel program's buffers at its first boundaries, against the reference's stages.  Both programs compute the
  edges' sources and targets (the given edges followed by one self-loop per node), the degree of each node as a sum of
  ones over the targets, its inverse square root, and the edge weight as the product of the two end points' values, by
  the SAME host operations from the same argument; so after the first host stretch the kernel program's buffers hold
  the reference's stage functions of the edge argument.  The first launch then leaves x·W1 — over the extended reals
  the same function as the reference's one-piece product —, and the second stretch gathers its rows along the sources,
  scales them by the edge weights and sums them into the targets, again by the reference's own operations; the bias is
  reshaped to one row.
-/
import proofs.«107864_j73959336837366_1_alg».proof.Proof.Gen.KernelIdeal.Frame
import proofs.«107864_j73959336837366_1_alg».proof.Proof.Gen.ReferenceIdeal.Read
import proofs.«107864_j73959336837366_1_alg».proof.Proof.Dense
import proofs.«107864_j73959336837366_1_alg».proof.Proof.Rows
import proofs.«107864_j73959336837366_1_alg».proof.Proof.Product0
import proofs.«107864_j73959336837366_1_alg».proof.Proof.RefProducts
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Cert.Dense

variable (m : (ℓ : Loc nD τ sig) → Buf (Elt Ideal) ℓ) (ρ : Dev nD → PrngReg) (c : Dev nD)

/-- A buffer that a launch's windows do not name keeps its contents across the launch, and a buffer that no operation of
    a host stretch writes keeps its contents across the stretch. -/
macro "kept" : tactic => `(tactic| first
  | exact W2_of_ne _ _ _ _ (by decide)
  | exact W4_of_ne _ _ _ _ (by decide)
  | exact W5_of_ne _ _ _ _ (by decide)
  | exact W7_of_ne _ _ _ _ (by decide)
  | exact W9_of_ne _ _ _ _ (by decide)
  | (show StableHlo.after _ _ _ = _; after_results_simp))

/-! ## After the first host stretch -/

theorem at1_arg0 : W1 m ρ c (Proc.devRef .tc main_arg0) = (m ((c : Thread nD τ).loc main_arg0)) := by kept
theorem at1_arg3 : W1 m ρ c (Proc.devRef .tc main_arg3) = (m ((c : Thread nD τ).loc main_arg3)) := by kept

/-- The edges' sources (with the self-loops), as the reference computes them. -/
theorem at1_sources : W1 m ρ c (Proc.devRef .tc main_v3) = val_main_v3 (m ((c : Thread nD τ).loc main_arg1)) := by
  show StableHlo.after hostOps0 (W0 m ρ c) (Proc.devRef .tc main_v3) = _
  after_results_simp
  rfl
/-- The edges' targets (with the self-loops). -/
theorem at1_targets : W1 m ρ c (Proc.devRef .tc main_v6) = val_main_v6 (m ((c : Thread nD τ).loc main_arg1)) := by
  show StableHlo.after hostOps0 (W0 m ρ c) (Proc.devRef .tc main_v6) = _
  after_results_simp
  rfl
/-- The edge weights: the product of the inverse square roots of the two end points' degrees. -/
theorem at1_weights : W1 m ρ c (Proc.devRef .tc main_v31) = val_main_v31 (m ((c : Thread nD τ).loc main_arg1)) := by
  show StableHlo.after hostOps0 (W0 m ρ c) (Proc.devRef .tc main_v31) = _
  after_results_simp
  rfl

/-! ## After the first launch: x·W1 -/

theorem at2_sources : W2 m ρ c (Proc.devRef .tc main_v3) = val_main_v3 (m ((c : Thread nD τ).loc main_arg1)) :=
  (show W2 m ρ c (Proc.devRef .tc main_v3) = W1 m ρ c (Proc.devRef .tc main_v3) by kept).trans (at1_sources m ρ c)
theorem at2_targets : W2 m ρ c (Proc.devRef .tc main_v6) = val_main_v6 (m ((c : Thread nD τ).loc main_arg1)) :=
  (show W2 m ρ c (Proc.devRef .tc main_v6) = W1 m ρ c (Proc.devRef .tc main_v6) by kept).trans (at1_targets m ρ c)
theorem at2_weights : W2 m ρ c (Proc.devRef .tc main_v31) = val_main_v31 (m ((c : Thread nD τ).loc main_arg1)) :=
  (show W2 m ρ c (Proc.devRef .tc main_v31) = W1 m ρ c (Proc.devRef .tc main_v31) by kept).trans (at1_weights m ρ c)
theorem at2_arg4 : W2 m ρ c (Proc.devRef .tc main_arg4) = (m ((c : Thread nD τ).loc main_arg4)) :=
  (show W2 m ρ c (Proc.devRef .tc main_arg4) = W1 m ρ c (Proc.devRef .tc main_arg4) by kept).trans (by kept)

/-- The first launch's output is the reference's first product. -/
theorem at2_product : W2 m ρ c (Proc.devRef .tc main_v32) = val_main_v32 (m ((c : Thread nD τ).loc main_arg0)) (m ((c : Thread nD τ).loc main_arg3)) := by
  refine (W2_arr m ρ c 2).trans ?_
  rw [Cert.KernelIdeal.Product0.final (V1 m ρ) c]
  rw [show V1 m ρ c main_arg0 = (m ((c : Thread nD τ).loc main_arg0)) from at1_arg0 m ρ c, show V1 m ρ c main_arg3 = (m ((c : Thread nD τ).loc main_arg3)) from at1_arg3 m ρ c]
  unfold val_main_v32
  exact (Cert.ReferenceIdeal.Bridge.dot_layer1 _ _).symm

/-! ## After the second host stretch: the first layer's aggregation, and its bias as a row -/

/-- A·(x·W1): gathered along the sources, scaled by the edge weights, summed into the targets. -/
theorem at3_aggregate : W3 m ρ c (Proc.devRef .tc main_v45) = val_main_v45 (m ((c : Thread nD τ).loc main_arg0)) (m ((c : Thread nD τ).loc main_arg1)) (m ((c : Thread nD τ).loc main_arg3)) := by
  show StableHlo.after hostOps1 (W2 m ρ c) (Proc.devRef .tc main_v45) = _
  after_results_simp
  rw [at2_product m ρ c, at2_sources m ρ c, at2_targets m ρ c, at2_weights m ρ c]
  rfl

theorem at3_bias : W3 m ρ c (Proc.devRef .tc main_v46) = asRow 64 (m ((c : Thread nD τ).loc main_arg4)) := by
  show StableHlo.after hostOps1 (W2 m ρ c) (Proc.devRef .tc main_v46) = _
  after_results_simp
  rw [at2_arg4 m ρ c]
  exact shapeCast_asRow 64 (m ((c : Thread nD τ).loc main_arg4)) _

end Cert.Bridge

end
-- ==== Proof.Product2.lean ====
/-
  The product h·W of launch 2, block by block.  The rows of h (50000 of them) are cut into five blocks of 10000 rows;
  grid point t holds rows 10000·t … 10000·t + 9999 of h and the whole of W (64 by 64), multiplies them into a zero
  accumulator and writes the 10000 by 64 result back as rows 10000·t … of the output.  Entry (r, c) of a block's product
  is Σ_k h[10000·t + r, k] · W[k, c]: it depends on ONE row of h and one column of W, so the five blocks are the five
  row bands of the one product h·W, and since the bands tile the rows the output array ends holding h·W.
-/
import proofs.«107864_j73959336837366_1_alg».proof.Proof.Gen.KernelIdeal.Frame
import proofs.«107864_j73959336837366_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Product2

open Idealize.ShloMosaic Idealize.ShloMosaic.TcCoe Idealize.SL.Sem Idealize.ShloMosaic.ValueIdx
open Idealize.ShloMosaic.Pipeline (Dat)
open Cert.KernelIdeal Cert.KernelIdeal.Gen Cert.Dense

/-! ## The block product's operand indices: (r, k) on the left, (k, c) on the right -/

theorem lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_row (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What one grid point computes from its two loaded blocks: the 10000 by 64 product of the row block by the weights
    (the reshape of the row block to its own shape and the change of float format on each operand are the identity,
    the accumulator starts at zero). -/
theorem block_product (hb : Vec Ideal S10000x64 .f32) (w : Vec Ideal S64x64 .f32) :
    k2_pay1 hb w = rowsTimes 10000 64 64 hb w := by
  funext j
  unfold k2_pay1
  simp only [shapeCast_self]
  refine (Ideal.matmul_constant_zero_apply dot_S10000x64_S64x64_S10000x64_1_0_0_1_n_n none _ _ j).trans ?_
  exact sum_contr dot_S10000x64_S64x64_S10000x64_1_0_0_1_n_n rfl rfl lhs_row lhs_col rhs_row rhs_col hb w j

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the five points: the row-block windows (input and output) sit at block (t, 0), the
    weights' window at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 5 :=
  (by decide +kernel : ∀ t : Fin grid2.N, _)

/-- WHAT POINT t WRITES BACK is block t (rows 10000·t …) of the one product of the two arrays as the launch finds them. -/
theorem flushed_eq (c : Dev nD) (t : Fin cfg2.N) :
    (dat2 V c).flushed 2 t
      = ((cfg2.win 2).blk t).view.read (Elt Ideal) (rowsTimes 50000 64 64 (V c main_v47) (V c main_arg5)) := by
  show (cfg2.win 2).cut (grid2.coords t) ((dat2 V c).after 2 t) = _
  rw [after2_2]
  unfold out2_2
  rw [View.canon_unit_zero offset_zero]
  simp only [View.ld_unit_zero (S := S10000x64) offset_zero, View.ld_unit_zero (S := S64x64) offset_zero]
  rw [block_product]
  obtain ⟨e0, e1, e2, e3, e4, e5, e6⟩ := index_maps t
  funext j
  show rowsTimes 10000 64 64 (iblk2 V c 0 t) (iblk2 V c 1 t) j
     = rowsTimes 50000 64 64 (V c main_v47) (V c main_arg5) (((cfg2.win 2).blk t).view.emb j)
  unfold rowsTimes
  refine Finset.sum_congr rfl fun k _ => ?_
  have hl : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have hr : ((cfg2.win 1).blk t).view.emb (ix2 k (j 1)) = ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have el : iblk2 V c 0 t (ix2 (j 0) k) = V c main_v47 (ix2 ((((cfg2.win 2).blk t).view.emb j) 0) k) := by
    show V c main_v47 (((cfg2.win 0).blk t).view.emb (ix2 (j 0) k)) = _
    rw [hl]
    rfl
  have er : iblk2 V c 1 t (ix2 k (j 1)) = V c main_arg5 (ix2 k ((((cfg2.win 2).blk t).view.emb j) 1)) := by
    show V c main_arg5 (((cfg2.win 1).blk t).view.emb (ix2 k (j 1))) = _
    rw [hr]
    rfl
  rw [el, er]

/-- An index of the output array is in point t's block iff each coordinate is in the block's range on its axis. -/
theorem mem_block (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every row band is some point's: band b is point b's. -/
theorem band_point : ∀ b : Fin 5, ∃ t : Fin cfg2.N, win2_2.index t = ![b.val, 0] :=
  (by decide +kernel : ∀ b : Fin 5, ∃ t : Fin grid2.N, win2_2.index t = ![b.val, 0])

/-- The five row bands tile the output: row r is in band r / 10000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := band_point ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE OUTPUT ARRAY after the launch is the product of the two input arrays as the launch finds them. -/
theorem final (c : Dev nD) :
    (dat2 V c).arrAt 2 cfg2.N = rowsTimes 50000 64 64 (V c main_v47) (V c main_arg5) :=
  (dat2 V c).arrAt_eq_of_cover 2 _ (fun t _ => flushed_eq V c t) (covered)

end Cert.KernelIdeal.Product2

end
-- ==== Proof.BiasRelu.lean ====
/-
  Bias then relu over the rows, block by block.  The array a has 50000 rows of 64 entries and the bias b is a single
  row of 64 entries.  The rows are cut into five consecutive blocks of 10000; at the block numbered t the program holds
  rows 10000·t … 10000·t + 9999 of a together with the whole of b, and leaves in the matching rows of the result

      out[r, c] = max(a[r, c] + b[0, c], 0).

  Entry (r, c) of the result therefore depends on a only at (r, c) and on b only at (0, c): the value written for a
  row does not depend on which block the row falls in, so each block written is the restriction to its rows of ONE
  function of the whole arrays, max(a + b, 0) with b added to every row.  Row r lies in block r / 10000, and
  r / 10000 < 5 because r < 50000, so the five blocks fill the array and the array ends equal to that function.
  The same holds, with the names changed, for the second layer's bias and relu.
-/
import proofs.«107864_j73959336837366_1_alg».proof.Proof.Gen.KernelIdeal.Frame
import proofs.«107864_j73959336837366_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Idealize.ShloMosaic Idealize.ShloMosaic.TcCoe Idealize.SL.Sem Idealize.ShloMosaic.ValueIdx
open Cert.KernelIdeal Cert.KernelIdeal.Gen Cert.Dense
open Idealize.ShloMosaic.Pipeline (Dat)

variable (V : (c : Dev nD) → (b : Ref sig .tc) → Buf (Elt Ideal) ((c : Thread nD τ).loc b))

/-- The two zero offsets of a block read or written whole, as the constant function. -/
theorem zero_offsets : (![0, 0] : Fin 2 → Nat) = fun _ => 0 := funext fun a => by fin_cases a <;> rfl

/-! ## The first layer's bias and relu -/

/-- On one block: the program's value at (p, q) is max(a[p, q] + b[0, q], 0). -/
theorem block1_eq (a : Vec Ideal S10000x64 .f32) (b : Vec Ideal S1x64 .f32) :
    k1_pay1 a b = addRowMax 10000 64 (Ideal.ofBits .f32 0x00000000#32) a b := by
  funext j
  obtain ⟨p, q, rfl⟩ : ∃ (p : Fin 10000) (q : Fin 64), j = ix2 p q := ⟨j 0, j 1, eq_ix2 j⟩
  unfold k1_pay1
  rw [addRowMax_apply]
  show max (shapeCast S10000x64 a shapeCasts_S10000x64_S10000x64 (ix2 p q)
      + broadcastTo S10000x64 (shapeCast S1x64 b shapeCasts_S1x64_S1x64) broadcasts_S1x64_S10000x64 (ix2 p q))
      (Ideal.ofBits .f32 0x00000000#32) = _
  rw [shapeCast_self, shapeCast_self]
  rw [broadcastTo_apply b broadcasts_S1x64_S10000x64 (ix2 p q) (ix2 (0 : Fin 1) q) (fun d => by
    match d with
    | ⟨0, _⟩ => rfl
    | ⟨1, _⟩ => rfl)]

/-- Which block each point holds, decided over the five points: of a and of the result, row block t and the only
    column block; of the bias, its only block. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- max(a + b, 0) of point t's blocks of a and b is point t's block of max(a + b, 0) of the whole arrays: entry (p, q)
    of the block is row 10000·t + p of a at column q, plus b at column q, cut off below at 0, and that is the whole-array
    function at the block's entry (p, q). -/
theorem rows1_eq (A : FVec Ideal S50000x64 .f32) (B : FVec Ideal S1x64 .f32) (t : Fin cfg1.N) :
    (cfg1.win 2).cut (grid1.coords t)
        (addRowMax 10000 64 (Ideal.ofBits .f32 0x00000000#32)
          (((cfg1.win 0).blk t).view.read (Elt Ideal) A) (((cfg1.win 1).blk t).view.read (Elt Ideal) B))
      = ((cfg1.win 2).blk t).view.read (Elt Ideal) (addRowMax 50000 64 (Ideal.ofBits .f32 0x00000000#32) A B) := by
  obtain ⟨e0, e1, e2, e3, e4, e5⟩ := blocks1 t
  funext j
  have hj0 : (j 0).val < 10000 := (j 0).isLt
  have hj1 : (j 1).val < 64 := (j 1).isLt
  show max (A (((cfg1.win 0).blk t).view.emb j)
        + B (((cfg1.win 1).blk t).view.emb (ix2 (0 : Fin 1) (⟨(j 1).val, hj1⟩ : Fin 64))))
      (Ideal.ofBits .f32 0x00000000#32)
    = max (A (((cfg1.win 2).blk t).view.emb j)
        + B (ix2 (0 : Fin 1) ((((cfg1.win 2).blk t).view.emb j) 1)))
      (Ideal.ofBits .f32 0x00000000#32)
  have ha : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have hb : ((cfg1.win 1).blk t).view.emb (ix2 (0 : Fin 1) (⟨(j 1).val, hj1⟩ : Fin 64))
      = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [ha, hb]
  rfl

/-- What point t writes back is its block of max(a + b, 0) of the arrays as the program finds them. -/
theorem written1_eq (c : Dev nD) (t : Fin cfg1.N) :
    (dat1 V c).flushed 2 t = ((cfg1.win 2).blk t).view.read (Elt Ideal)
      (addRowMax 50000 64 (Ideal.ofBits .f32 0x00000000#32) (V c main_v45) (V c main_v46)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  rw [block1_eq]
  exact rows1_eq (V c main_v45) (V c main_v46) t

/-- An index of the result is in point t's block iff each coordinate is in the block's range on its axis. -/
theorem mem_block1 (t : Fin cfg1.N) (i : S50000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Every entry of the result is written: row r lies in the block of point r / 10000, and r / 10000 < 5. -/
theorem filled1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by rw [show cfg1.N = 5 from N_1]; omega⟩, rfl⟩
  obtain ⟨e0, e1, e2, e3, e4, e5⟩ := blocks1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result after the five points: max(a + b, 0), with the single row b added to every row of a. -/
theorem final1 (c : Dev nD) :
    (dat1 V c).arrAt 2 cfg1.N = addRowMax 50000 64 (Ideal.ofBits .f32 0x00000000#32) (V c main_v45) (V c main_v46) :=
  (dat1 V c).arrAt_eq_of_cover 2 (addRowMax 50000 64 (Ideal.ofBits .f32 0x00000000#32) (V c main_v45) (V c main_v46))
    (fun t _ => written1_eq V c t) filled1

/-! ## The second layer's bias and relu -/

/-- On one block: the program's value at (p, q) is max(a[p, q] + b[0, q], 0). -/
theorem block3_eq (a : Vec Ideal S10000x64 .f32) (b : Vec Ideal S1x64 .f32) :
    k3_pay1 a b = addRowMax 10000 64 (Ideal.ofBits .f32 0x00000000#32) a b := by
  funext j
  obtain ⟨p, q, rfl⟩ : ∃ (p : Fin 10000) (q : Fin 64), j = ix2 p q := ⟨j 0, j 1, eq_ix2 j⟩
  unfold k3_pay1
  rw [addRowMax_apply]
  show max (shapeCast S10000x64 a shapeCasts_S10000x64_S10000x64 (ix2 p q)
      + broadcastTo S10000x64 (shapeCast S1x64 b shapeCasts_S1x64_S1x64) broadcasts_S1x64_S10000x64 (ix2 p q))
      (Ideal.ofBits .f32 0x00000000#32) = _
  rw [shapeCast_self, shapeCast_self]
  rw [broadcastTo_apply b broadcasts_S1x64_S10000x64 (ix2 p q) (ix2 (0 : Fin 1) q) (fun d => by
    match d with
    | ⟨0, _⟩ => rfl
    | ⟨1, _⟩ => rfl)]

/-- Which block each point holds, decided over the five points: of a and of the result, row block t and the only
    column block; of the bias, its only block. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- max(a + b, 0) of point t's blocks of a and b is point t's block of max(a + b, 0) of the whole arrays: entry (p, q)
    of the block is row 10000·t + p of a at column q, plus b at column q, cut off below at 0, and that is the whole-array
    function at the block's entry (p, q). -/
theorem rows3_eq (A : FVec Ideal S50000x64 .f32) (B : FVec Ideal S1x64 .f32) (t : Fin cfg3.N) :
    (cfg3.win 2).cut (grid3.coords t)
        (addRowMax 10000 64 (Ideal.ofBits .f32 0x00000000#32)
          (((cfg3.win 0).blk t).view.read (Elt Ideal) A) (((cfg3.win 1).blk t).view.read (Elt Ideal) B))
      = ((cfg3.win 2).blk t).view.read (Elt Ideal) (addRowMax 50000 64 (Ideal.ofBits .f32 0x00000000#32) A B) := by
  obtain ⟨e0, e1, e2, e3, e4, e5⟩ := blocks3 t
  funext j
  have hj0 : (j 0).val < 10000 := (j 0).isLt
  have hj1 : (j 1).val < 64 := (j 1).isLt
  show max (A (((cfg3.win 0).blk t).view.emb j)
        + B (((cfg3.win 1).blk t).view.emb (ix2 (0 : Fin 1) (⟨(j 1).val, hj1⟩ : Fin 64))))
      (Ideal.ofBits .f32 0x00000000#32)
    = max (A (((cfg3.win 2).blk t).view.emb j)
        + B (ix2 (0 : Fin 1) ((((cfg3.win 2).blk t).view.emb j) 1)))
      (Ideal.ofBits .f32 0x00000000#32)
  have ha : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have hb : ((cfg3.win 1).blk t).view.emb (ix2 (0 : Fin 1) (⟨(j 1).val, hj1⟩ : Fin 64))
      = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [ha, hb]
  rfl

/-- What point t writes back is its block of max(a + b, 0) of the arrays as the program finds them. -/
theorem written3_eq (c : Dev nD) (t : Fin cfg3.N) :
    (dat3 V c).flushed 2 t = ((cfg3.win 2).blk t).view.read (Elt Ideal)
      (addRowMax 50000 64 (Ideal.ofBits .f32 0x00000000#32) (V c main_v61) (V c main_v62)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  rw [block3_eq]
  exact rows3_eq (V c main_v61) (V c main_v62) t

/-- An index of the result is in point t's block iff each coordinate is in the block's range on its axis. -/
theorem mem_block3 (t : Fin cfg3.N) (i : S50000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- Every entry of the result is written: row r lies in the block of point r / 10000, and r / 10000 < 5. -/
theorem filled3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 10000 :=
    ⟨⟨(i 0).val / 10000, by rw [show cfg3.N = 5 from N_3]; omega⟩, rfl⟩
  obtain ⟨e0, e1, e2, e3, e4, e5⟩ := blocks3 t
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result after the five points: max(a + b, 0), with the single row b added to every row of a. -/
theorem final3 (c : Dev nD) :
    (dat3 V c).arrAt 2 cfg3.N = addRowMax 50000 64 (Ideal.ofBits .f32 0x00000000#32) (V c main_v61) (V c main_v62) :=
  (dat3 V c).arrAt_eq_of_cover 2 (addRowMax 50000 64 (Ideal.ofBits .f32 0x00000000#32) (V c main_v61) (V c main_v62))
    (fun t _ => written3_eq V c t) filled3

end Cert.KernelIdeal.BiasRelu

end
-- ==== Proof.RefBiasRelu.lean ====
/-
  The reference's bias then relu, read entry by entry.  The bias b has 64 entries.  It is first spread to the one-row
  array [1, 64] (entry (0, c) is b[c]), that row is spread over the 50000 rows (entry (r, c) is the row's entry (0, c)),
  and the result is added to a; the sum is then compared with the constant 0 spread over the whole array.  At the
  entry (r, c) this is

      max(a[r, c] + b[c], 0),

  which is max(a + row, 0) with row the one-row array holding b, added to every row of a.
-/
import proofs.«107864_j73959336837366_1_alg».proof.Proof.Gen.ReferenceIdeal.Read
import proofs.«107864_j73959336837366_1_alg».proof.Proof.Dense
import Idealize.ShloMosaic.Lib.Pipeline.Value
import Idealize.ShloMosaic.Lib.ValueIdx

noncomputable section

namespace Cert.ReferenceIdeal.Bridge

open Idealize.ShloMosaic Idealize.ShloMosaic.ValueIdx Cert.ReferenceIdeal Cert.ReferenceIdeal.Gen Cert.Dense

/-- max(a + spread(spread(b)), spread(0)) is max(a + row, 0) with row = b as a one-row array: at (p, q) the twice-spread
    bias reads b[q] and the spread constant reads 0. -/
theorem relu_add_row (a : FVec Ideal S50000x64 .f32) (b : FVec Ideal S64 .f32) :
    maximumf (addf a (broadcastInDim S50000x64 ![0, 1] bcast_S1x64_S50000x64_0_1 (broadcastInDim S1x64 ![1] bcast_S64_S1x64_1 b)))
        (broadcastInDim S50000x64 ![] bcast_S_S50000x64 (constant S_ .f32 0x00000000#32))
      = addRowMax 50000 64 (Ideal.ofBits .f32 0x00000000#32) a (asRow 64 b) := by
  funext i
  obtain ⟨p, q, rfl⟩ : ∃ (p : Fin 50000) (q : Fin 64), i = ix2 p q := ⟨i 0, i 1, eq_ix2 i⟩
  rw [addRowMax_apply, asRow_apply, maximumf_apply, addf_apply]
  rw [broadcastInDim_apply ![0, 1] bcast_S1x64_S50000x64_0_1 _ (ix2 p q) (ix2 (0 : Fin 1) q) (fun d => by
    match d with
    | ⟨0, _⟩ => rfl
    | ⟨1, _⟩ => rfl)]
  rw [broadcastInDim_apply ![1] bcast_S64_S1x64_1 b (ix2 (0 : Fin 1) q) (ix1 q) (fun d => by
    match d with
    | ⟨0, _⟩ => rfl)]
  rw [broadcastInDim_apply ![] bcast_S_S50000x64 _ (ix2 p q) ix0 (fun d => d.elim0)]
  rfl

end Cert.ReferenceIdeal.Bridge

end
-- ==== Proof.Chain47.lean ====
/-
  The kernel program's buffers at its middle boundaries, against the reference's stages.  The second launch adds the
  bias row to the aggregated features and cuts off below at zero: the first layer's output.  The third launch multiplies
  it by W2; the third host stretch aggregates along the edges exactly as the second did (same sources, targets and edge
  weights, which no launch or stretch in between writes); the fourth launch is the second layer's bias and cut-off.
-/
import proofs.«107864_j73959336837366_1_alg».proof.Proof.Chain03
import proofs.«107864_j73959336837366_1_alg».proof.Proof.Product2
import proofs.«107864_j73959336837366_1_alg».proof.Proof.BiasRelu
import proofs.«107864_j73959336837366_1_alg».proof.Proof.RefBiasRelu
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Cert.Dense

variable (m : (ℓ : Loc nD τ sig) → Buf (Elt Ideal) ℓ) (ρ : Dev nD → PrngReg) (c : Dev nD)

/-! ## After the second launch: the first layer's output max(A·(x·W1) + b1, 0) -/

theorem at4_hidden : W4 m ρ c (Proc.devRef .tc main_v47) = val_main_v49 (m ((c : Thread nD τ).loc main_arg0)) (m ((c : Thread nD τ).loc main_arg1)) (m ((c : Thread nD τ).loc main_arg3)) (m ((c : Thread nD τ).loc main_arg4)) := by
  refine (W4_arr m ρ c 2).trans ?_
  rw [Cert.KernelIdeal.BiasRelu.final1 (V3 m ρ) c]
  rw [show V3 m ρ c main_v45 = val_main_v45 (m ((c : Thread nD τ).loc main_arg0)) (m ((c : Thread nD τ).loc main_arg1)) (m ((c : Thread nD τ).loc main_arg3)) from at3_aggregate m ρ c, show V3 m ρ c main_v46 = asRow 64 (m ((c : Thread nD τ).loc main_arg4)) from at3_bias m ρ c]
  unfold val_main_v49 val_main_v48 val_main_v47 val_main_v46 val_main_call0_v0 val_main_call0_cst
  exact (Cert.ReferenceIdeal.Bridge.relu_add_row _ _).symm

set_option maxHeartbeats 2000000 in
theorem at4_arg5 : W4 m ρ c (Proc.devRef .tc main_arg5) = (m ((c : Thread nD τ).loc main_arg5)) :=
  calc W4 m ρ c (Proc.devRef .tc main_arg5) = W3 m ρ c (Proc.devRef .tc main_arg5) := W4_of_ne m ρ c main_arg5 (by decide)
    _ = W2 m ρ c (Proc.devRef .tc main_arg5) := by
        show StableHlo.after hostOps1 (W2 m ρ c) (Proc.devRef .tc main_arg5) = _
        after_results_simp
    _ = W1 m ρ c (Proc.devRef .tc main_arg5) := W2_of_ne m ρ c main_arg5 (by decide)
    _ = (m ((c : Thread nD τ).loc main_arg5)) := by
        show StableHlo.after hostOps0 (W0 m ρ c) (Proc.devRef .tc main_arg5) = _
        after_results_simp

/-! ## After the third launch: the product with W2 -/

theorem at5_product : W5 m ρ c (Proc.devRef .tc main_v48) = val_main_v50 (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  rw [Cert.KernelIdeal.Product2.final (V4 m ρ) c]
  rw [show V4 m ρ c main_v47 = val_main_v49 (m ((c : Thread nD τ).loc main_arg0)) (m ((c : Thread nD τ).loc main_arg1)) (m ((c : Thread nD τ).loc main_arg3)) (m ((c : Thread nD τ).loc main_arg4)) from at4_hidden m ρ c, show V4 m ρ c main_arg5 = (m ((c : Thread nD τ).loc main_arg5)) from at4_arg5 m ρ c]
  unfold val_main_v50
  exact (Cert.ReferenceIdeal.Bridge.dot_layer2 _ _).symm

set_option maxHeartbeats 2000000 in
theorem at5_sources : W5 m ρ c (Proc.devRef .tc main_v3) = val_main_v3 (m ((c : Thread nD τ).loc main_arg1)) :=
  calc W5 m ρ c (Proc.devRef .tc main_v3) = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by
        show StableHlo.after hostOps1 (W2 m ρ c) (Proc.devRef .tc main_v3) = _
        after_results_simp
    _ = val_main_v3 (m ((c : Thread nD τ).loc main_arg1)) := at2_sources m ρ c

set_option maxHeartbeats 2000000 in
theorem at5_targets : W5 m ρ c (Proc.devRef .tc main_v6) = val_main_v6 (m ((c : Thread nD τ).loc main_arg1)) :=
  calc W5 m ρ c (Proc.devRef .tc main_v6) = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by
        show StableHlo.after hostOps1 (W2 m ρ c) (Proc.devRef .tc main_v6) = _
        after_results_simp
    _ = val_main_v6 (m ((c : Thread nD τ).loc main_arg1)) := at2_targets m ρ c

set_option maxHeartbeats 2000000 in
theorem at5_weights : W5 m ρ c (Proc.devRef .tc main_v31) = val_main_v31 (m ((c : Thread nD τ).loc main_arg1)) :=
  calc W5 m ρ c (Proc.devRef .tc main_v31) = W4 m ρ c (Proc.devRef .tc main_v31) := W5_of_ne m ρ c main_v31 (by decide)
    _ = W3 m ρ c (Proc.devRef .tc main_v31) := W4_of_ne m ρ c main_v31 (by decide)
    _ = W2 m ρ c (Proc.devRef .tc main_v31) := by
        show StableHlo.after hostOps1 (W2 m ρ c) (Proc.devRef .tc main_v31) = _
        after_results_simp
    _ = val_main_v31 (m ((c : Thread nD τ).loc main_arg1)) := at2_weights m ρ c

set_option maxHeartbeats 2000000 in
theorem at5_arg6 : W5 m ρ c (Proc.devRef .tc main_arg6) = (m ((c : Thread nD τ).loc main_arg6)) :=
  calc W5 m ρ c (Proc.devRef .tc main_arg6) = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by
        show StableHlo.after hostOps1 (W2 m ρ c) (Proc.devRef .tc main_arg6) = _
        after_results_simp
    _ = W1 m ρ c (Proc.devRef .tc main_arg6) := W2_of_ne m ρ c main_arg6 (by decide)
    _ = (m ((c : Thread nD τ).loc main_arg6)) := by
        show StableHlo.after hostOps0 (W0 m ρ c) (Proc.devRef .tc main_arg6) = _
        after_results_simp

/-! ## After the third host stretch: the second layer's aggregation, and its bias as a row -/

theorem at6_aggregate : W6 m ρ c (Proc.devRef .tc main_v61) = val_main_v63 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v61) = _
  after_results_simp
  rw [at5_product m ρ c, at5_sources m ρ c, at5_targets m ρ c, at5_weights m ρ c]
  rfl

theorem at6_bias : W6 m ρ c (Proc.devRef .tc main_v62) = asRow 64 (m ((c : Thread nD τ).loc main_arg6)) := by
  show StableHlo.after hostOps3 (W5 m ρ c) (Proc.devRef .tc main_v62) = _
  after_results_simp
  rw [at5_arg6 m ρ c]
  exact shapeCast_asRow 64 (m ((c : Thread nD τ).loc main_arg6)) _

/-! ## After the fourth launch: the second layer's output -/

theorem at7_hidden : W7 m ρ c (Proc.devRef .tc main_v63) = val_main_v67 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ?_
  rw [Cert.KernelIdeal.BiasRelu.final3 (V6 m ρ) c]
  rw [show V6 m ρ c main_v61 = val_main_v63 (m ((c : Thread nD τ).loc main_arg0)) (m ((c : Thread nD τ).loc main_arg1)) (m ((c : Thread nD τ).loc main_arg3)) (m ((c : Thread nD τ).loc main_arg4)) (m ((c : Thread nD τ).loc main_arg5)) from at6_aggregate m ρ c, show V6 m ρ c main_v62 = asRow 64 (m ((c : Thread nD τ).loc main_arg6)) from at6_bias m ρ c]
  unfold val_main_v67 val_main_v66 val_main_v65 val_main_v64 val_main_call1_v0 val_main_call1_cst
  exact (Cert.ReferenceIdeal.Bridge.relu_add_row _ _).symm

set_option maxHeartbeats 2000000 in
theorem at7_arg2 : W7 m ρ c (Proc.devRef .tc main_arg2) = (m ((c : Thread nD τ).loc main_arg2)) :=
  calc W7 m ρ c (Proc.devRef .tc main_arg2) = W6 m ρ c (Proc.devRef .tc main_arg2) := W7_of_ne m ρ c main_arg2 (by decide)
    _ = W5 m ρ c (Proc.devRef .tc main_arg2) := by
        show StableHlo.after hostOps3 (W5 m ρ c) (Proc.devRef .tc main_arg2) = _
        after_results_simp
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by
        show StableHlo.after hostOps1 (W2 m ρ c) (Proc.devRef .tc main_arg2) = _
        after_results_simp
    _ = W1 m ρ c (Proc.devRef .tc main_arg2) := W2_of_ne m ρ c main_arg2 (by decide)
    _ = (m ((c : Thread nD τ).loc main_arg2)) := by
        show StableHlo.after hostOps0 (W0 m ρ c) (Proc.devRef .tc main_arg2) = _
        after_results_simp

set_option maxHeartbeats 2000000 in
theorem at7_arg7 : W7 m ρ c (Proc.devRef .tc main_arg7) = (m ((c : Thread nD τ).loc main_arg7)) :=
  calc W7 m ρ c (Proc.devRef .tc main_arg7) = W6 m ρ c (Proc.devRef .tc main_arg7) := W7_of_ne m ρ c main_arg7 (by decide)
    _ = W5 m ρ c (Proc.devRef .tc main_arg7) := by
        show StableHlo.after hostOps3 (W5 m ρ c) (Proc.devRef .tc main_arg7) = _
        after_results_simp
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by
        show StableHlo.after hostOps1 (W2 m ρ c) (Proc.devRef .tc main_arg7) = _
        after_results_simp
    _ = W1 m ρ c (Proc.devRef .tc main_arg7) := W2_of_ne m ρ c main_arg7 (by decide)
    _ = (m ((c : Thread nD τ).loc main_arg7)) := by
        show StableHlo.after hostOps0 (W0 m ρ c) (Proc.devRef .tc main_arg7) = _
        after_results_simp

set_option maxHeartbeats 2000000 in
theorem at7_arg8 : W7 m ρ c (Proc.devRef .tc main_arg8) = (m ((c : Thread nD τ).loc main_arg8)) :=
  calc W7 m ρ c (Proc.devRef .tc main_arg8) = W6 m ρ c (Proc.devRef .tc main_arg8) := W7_of_ne m ρ c main_arg8 (by decide)
    _ = W5 m ρ c (Proc.devRef .tc main_arg8) := by
        show StableHlo.after hostOps3 (W5 m ρ c) (Proc.devRef .tc main_arg8) = _
        after_results_simp
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by
        show StableHlo.after hostOps1 (W2 m ρ c) (Proc.devRef .tc main_arg8) = _
        after_results_simp
    _ = W1 m ρ c (Proc.devRef .tc main_arg8) := W2_of_ne m ρ c main_arg8 (by decide)
    _ = (m ((c : Thread nD τ).loc main_arg8)) := by
        show StableHlo.after hostOps0 (W0 m ρ c) (Proc.devRef .tc main_arg8) = _
        after_results_simp

set_option maxHeartbeats 2000000 in
theorem at7_arg9 : W7 m ρ c (Proc.devRef .tc main_arg9) = (m ((c : Thread nD τ).loc main_arg9)) :=
  calc W7 m ρ c (Proc.devRef .tc main_arg9) = W6 m ρ c (Proc.devRef .tc main_arg9) := W7_of_ne m ρ c main_arg9 (by decide)
    _ = W5 m ρ c (Proc.devRef .tc main_arg9) := by
        show StableHlo.after hostOps3 (W5 m ρ c) (Proc.devRef .tc main_arg9) = _
        after_results_simp
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by
        show StableHlo.after hostOps1 (W2 m ρ c) (Proc.devRef .tc main_arg9) = _
        after_results_simp
    _ = W1 m ρ c (Proc.devRef .tc main_arg9) := W2_of_ne m ρ c main_arg9 (by decide)
    _ = (m ((c : Thread nD τ).loc main_arg9)) := by
        show StableHlo.after hostOps0 (W0 m ρ c) (Proc.devRef .tc main_arg9) = _
        after_results_simp

set_option maxHeartbeats 2000000 in
theorem at7_arg10 : W7 m ρ c (Proc.devRef .tc main_arg10) = (m ((c : Thread nD τ).loc main_arg10)) :=
  calc W7 m ρ c (Proc.devRef .tc main_arg10) = W6 m ρ c (Proc.devRef .tc main_arg10) := W7_of_ne m ρ c main_arg10 (by decide)
    _ = W5 m ρ c (Proc.devRef .tc main_arg10) := by
        show StableHlo.after hostOps3 (W5 m ρ c) (Proc.devRef .tc main_arg10) = _
        after_results_simp
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by
        show StableHlo.after hostOps1 (W2 m ρ c) (Proc.devRef .tc main_arg10) = _
        after_results_simp
    _ = W1 m ρ c (Proc.devRef .tc main_arg10) := W2_of_ne m ρ c main_arg10 (by decide)
    _ = (m ((c : Thread nD τ).loc main_arg10)) := by
        show StableHlo.after hostOps0 (W0 m ρ c) (Proc.devRef .tc main_arg10) = _
        after_results_simp

end Cert.Bridge

end
-- ==== Proof.Head.lean ====
/-
  The read-out head of the kernel program, as one function of whole arrays.

  The head runs at a single grid point and every one of its six windows is the whole of its array: the pooled
  array p (one row per graph, 512 × 64), the two weight arrays Wf1 (64 × 128) and Wf2 (128 × 10), the two biases as
  one-row arrays bf1 (1 × 128) and bf2 (1 × 10), and the output (512 × 10).  A block is therefore the array itself:
  the block's coordinate a of an index j is 0 × size + 1 × j a = j a.  The body loads the five inputs whole, forms

      (p · Wf1 + bf1) · Wf2 + bf2

  with two products into zero accumulators and each bias row repeated down the 512 rows, and stores the result
  whole.  Over the extended reals the narrowing of a product's operands is the identity, a product into the zero
  accumulator is the plain sum Σ_k l[r, k] · w[k, c], and so entry (r, c) of the output depends on row r of p, on
  all of Wf1, bf1, column c of Wf2 and entry c of bf2 — exactly the specification's two affine maps.  Since the one
  point's block covers every index, what the point writes back is the whole output array.
-/
import proofs.«107864_j73959336837366_1_alg».proof.Proof.Gen.KernelIdeal.Frame
import proofs.«107864_j73959336837366_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Idealize.ShloMosaic Idealize.ShloMosaic.TcCoe Idealize.SL.Sem Idealize.ShloMosaic.ValueIdx Cert.KernelIdeal Cert.KernelIdeal.Gen Cert.Dense
open Idealize.ShloMosaic.Pipeline (Dat)

variable (V : (c : Dev nD) → (b : Ref sig .tc) → Buf (Elt Ideal) ((c : Thread nD τ).loc b))

/-! ## The two products: which entries of its operands a product reads -/

/-- First product, left operand: its row is the output's row. -/
theorem lhs1_row (i : S512x128.Idx) (q : dot_S512x64_S64x128_S512x128_1_0_0_1_n_n.contr.Idx) :
    (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
/-- First product, left operand: its column is the summation index. -/
theorem lhs1_col (i : S512x128.Idx) (q : dot_S512x64_S64x128_S512x128_1_0_0_1_n_n.contr.Idx) :
    (dot_S512x64_S64x128_S512x128_1_0_0_1_n_n.lhsIdx i q 1).val = (q ⟨0, by decide⟩).val :=
  dot_S512x64_S64x128_S512x128_1_0_0_1_n_n.lhsIdx_val_of_single rfl i q
/-- First product, right operand: its row is the summation index. -/
theorem rhs1_row (i : S512x128.Idx) (q : dot_S512x64_S64x128_S512x128_1_0_0_1_n_n.contr.Idx) :
    (dot_S512x64_S64x128_S512x128_1_0_0_1_n_n.rhsIdx i q 0).val = (q ⟨0, by decide⟩).val :=
  dot_S512x64_S64x128_S512x128_1_0_0_1_n_n.rhsIdx_val_of_single rfl i q
/-- First product, right operand: its column is the output's column. -/
theorem rhs1_col (i : S512x128.Idx) (q : dot_S512x64_S64x128_S512x128_1_0_0_1_n_n.contr.Idx) :
    (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl

/-- Second product, left operand: its row is the output's row. -/
theorem lhs2_row (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
/-- Second product, left operand: its column is the summation index. -/
theorem lhs2_col (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q
/-- Second product, right operand: its row is the summation index. -/
theorem rhs2_row (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q
/-- Second product, right operand: its column is the output's column. -/
theorem rhs2_col (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The first product into the zero accumulator is the rows-by-columns product. -/
theorem product1 (l : FVec Ideal S512x64 .f32) (r : FVec Ideal S64x128 .f32) :
    FloatOps.matmul (F := Ideal) dot_S512x64_S64x128_S512x128_1_0_0_1_n_n none l r (constant S512x128 .f32 0x00000000#32)
      = rowsTimes 512 64 128 l r := by
  funext j
  exact (Ideal.matmul_constant_zero_apply dot_S512x64_S64x128_S512x128_1_0_0_1_n_n none l r j).trans
    (sum_contr dot_S512x64_S64x128_S512x128_1_0_0_1_n_n rfl rfl lhs1_row lhs1_col rhs1_row rhs1_col l r j)

/-- The second product into the zero accumulator is the rows-by-columns product. -/
theorem product2 (l : FVec Ideal S512x128 .f32) (r : FVec Ideal S128x10 .f32) :
    FloatOps.matmul (F := Ideal) dot_S512x128_S128x10_S512x10_1_0_0_1_n_n none l r (constant S512x10 .f32 0x00000000#32)
      = rowsTimes 512 128 10 l r := by
  funext j
  exact (Ideal.matmul_constant_zero_apply dot_S512x128_S128x10_S512x10_1_0_0_1_n_n none l r j).trans
    (sum_contr dot_S512x128_S128x10_S512x10_1_0_0_1_n_n rfl rfl lhs2_row lhs2_col rhs2_row rhs2_col l r j)

/-- A one-row array repeated down the rows: entry (r, c) is the row's entry c. -/
theorem repeat_row_128 (b : FVec Ideal S1x128 .f32) (r : Fin 512) (c : Fin 128) :
    broadcastTo S512x128 b broadcasts_S1x128_S512x128 (ix2 r c) = b (ix2 (0 : Fin 1) c) :=
  broadcastTo_apply b broadcasts_S1x128_S512x128 (ix2 r c) (ix2 (0 : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])

theorem repeat_row_10 (b : FVec Ideal S1x10 .f32) (r : Fin 512) (c : Fin 10) :
    broadcastTo S512x10 b broadcasts_S1x10_S512x10 (ix2 r c) = b (ix2 (0 : Fin 1) c) :=
  broadcastTo_apply b broadcasts_S1x10_S512x10 (ix2 r c) (ix2 (0 : Fin 1) c) (fun a => match a with
    | ⟨0, _⟩ => by show 0 = if (1 : Nat) = 1 then 0 else _; rw [if_pos rfl]
    | ⟨1, _⟩ => by show c.val = if (10 : Nat) = 1 then 0 else c.val; rw [if_neg (by decide)])

/-- Adding a one-row array repeated down the rows is the specification's "one row added to every row". -/
theorem add_repeat_128 (a : FVec Ideal S512x128 .f32) (b : FVec Ideal S1x128 .f32) :
    addf a (broadcastTo S512x128 b broadcasts_S1x128_S512x128) = addRow 512 128 a b := by
  funext j
  obtain ⟨r, c, rfl⟩ : ∃ (r : Fin 512) (c : Fin 128), j = ix2 r c := ⟨j 0, j 1, eq_ix2 j⟩
  rw [addf_apply, repeat_row_128]
  rfl

theorem add_repeat_10 (a : FVec Ideal S512x10 .f32) (b : FVec Ideal S1x10 .f32) :
    addf a (broadcastTo S512x10 b broadcasts_S1x10_S512x10) = addRow 512 10 a b := by
  funext j
  obtain ⟨r, c, rfl⟩ : ∃ (r : Fin 512) (c : Fin 10), j = ix2 r c := ⟨j 0, j 1, eq_ix2 j⟩
  rw [addf_apply, repeat_row_10]
  rfl

/-! ## The body's payload -/

/-- What the body stores, from the five arrays it loads: the two affine maps of the specification. Narrowing an
    operand is the identity over the extended reals, and a cast between equal shapes changes nothing. -/
theorem payload_eq (p : Vec Ideal S512x64 .f32) (w1 : Vec Ideal S64x128 .f32) (b1 : Vec Ideal S1x128 .f32)
    (w2 : Vec Ideal S128x10 .f32) (b2 : Vec Ideal S1x10 .f32) :
    k4_pay1 p w1 b1 w2 b2
      = addRow 512 10 (rowsTimes 512 128 10 (addRow 512 128 (rowsTimes 512 64 128 p w1) b1) w2) b2 := by
  unfold k4_pay1
  rw [shapeCast_self, shapeCast_self, shapeCast_self]
  show addf (FloatOps.matmul (F := Ideal) (φ₁ := .f32) (φ₂ := .f32) dot_S512x128_S128x10_S512x10_1_0_0_1_n_n none
        (addf (FloatOps.matmul (F := Ideal) (φ₁ := .f32) (φ₂ := .f32) dot_S512x64_S64x128_S512x128_1_0_0_1_n_n none p w1
            (constant S512x128 .f32 0x00000000#32))
          (broadcastTo S512x128 (b1 : FVec Ideal S1x128 .f32) broadcasts_S1x128_S512x128))
        w2 (constant S512x10 .f32 0x00000000#32))
      (broadcastTo S512x10 (b2 : FVec Ideal S1x10 .f32) broadcasts_S1x10_S512x10) = _
  rw [product1, add_repeat_128, product2, add_repeat_10]

/-! ## From the one block to the array -/

theorem zero_offsets : (![0, 0] : Fin 2 → Nat) = fun _ => 0 := funext fun a => by fin_cases a <;> rfl

/-- The windows' index maps at the grid's point: every window's block index is 0 on both axes. -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The head as one function of the five arrays the region finds: (p · Wf1 + bf1) · Wf2 + bf2. -/
abbrev headOf (c : Dev nD) : S512x10.Idx → Elt Ideal .f32 :=
  addRow 512 10 (rowsTimes 512 128 10 (addRow 512 128 (rowsTimes 512 64 128 (V c main_v75) (V c main_arg7)) (V c main_v76)) (V c main_arg9)) (V c main_v77)

/-- The pooled array's block is the array: index 0 × 512 + 1 × the row, 0 × 64 + 1 × the column. -/
theorem block_pooled (c : Dev nD) (t : Fin cfg4.N) : iblk4 V c 0 t = V c main_v75 := by
  obtain ⟨e0, e1, -⟩ := index_zero t
  funext j
  show V c main_v75 (((cfg4.win 0).blk t).view.emb j) = V c main_v75 j
  refine congrArg _ (funext fun a => Fin.ext ?_)
  match a with
  | ⟨0, _⟩ => show win4_0.index t (0 : Fin 2) * 512 + 1 * (j 0).val = (j 0).val; omega
  | ⟨1, _⟩ => show win4_0.index t (1 : Fin 2) * 64 + 1 * (j 1).val = (j 1).val; omega

/-- The first weight array's block is the array. -/
theorem block_weight1 (c : Dev nD) (t : Fin cfg4.N) : iblk4 V c 1 t = V c main_arg7 := by
  obtain ⟨-, -, e0, e1, -⟩ := index_zero t
  funext j
  show V c main_arg7 (((cfg4.win 1).blk t).view.emb j) = V c main_arg7 j
  refine congrArg _ (funext fun a => Fin.ext ?_)
  match a with
  | ⟨0, _⟩ => show win4_1.index t (0 : Fin 2) * 64 + 1 * (j 0).val = (j 0).val; omega
  | ⟨1, _⟩ => show win4_1.index t (1 : Fin 2) * 128 + 1 * (j 1).val = (j 1).val; omega

/-- The first bias row's block is the array. -/
theorem block_bias1 (c : Dev nD) (t : Fin cfg4.N) : iblk4 V c 2 t = V c main_v76 := by
  obtain ⟨-, -, -, -, e0, e1, -⟩ := index_zero t
  funext j
  show V c main_v76 (((cfg4.win 2).blk t).view.emb j) = V c main_v76 j
  refine congrArg _ (funext fun a => Fin.ext ?_)
  match a with
  | ⟨0, _⟩ => show win4_2.index t (0 : Fin 2) * 1 + 1 * (j 0).val = (j 0).val; omega
  | ⟨1, _⟩ => show win4_2.index t (1 : Fin 2) * 128 + 1 * (j 1).val = (j 1).val; omega

/-- The second weight array's block is the array. -/
theorem block_weight2 (c : Dev nD) (t : Fin cfg4.N) : iblk4 V c 3 t = V c main_arg9 := by
  obtain ⟨-, -, -, -, -, -, e0, e1, -⟩ := index_zero t
  funext j
  show V c main_arg9 (((cfg4.win 3).blk t).view.emb j) = V c main_arg9 j
  refine congrArg _ (funext fun a => Fin.ext ?_)
  match a with
  | ⟨0, _⟩ => show win4_3.index t (0 : Fin 2) * 128 + 1 * (j 0).val = (j 0).val; omega
  | ⟨1, _⟩ => show win4_3.index t (1 : Fin 2) * 10 + 1 * (j 1).val = (j 1).val; omega

/-- The second bias row's block is the array. -/
theorem block_bias2 (c : Dev nD) (t : Fin cfg4.N) : iblk4 V c 4 t = V c main_v77 := by
  obtain ⟨-, -, -, -, -, -, -, -, e0, e1, -⟩ := index_zero t
  funext j
  show V c main_v77 (((cfg4.win 4).blk t).view.emb j) = V c main_v77 j
  refine congrArg _ (funext fun a => Fin.ext ?_)
  match a with
  | ⟨0, _⟩ => show win4_4.index t (0 : Fin 2) * 1 + 1 * (j 0).val = (j 0).val; omega
  | ⟨1, _⟩ => show win4_4.index t (1 : Fin 2) * 10 + 1 * (j 1).val = (j 1).val; omega

/-- What the point writes back is its block — the whole — of the head of the arrays the region finds. -/
theorem flushed_eq (c : Dev nD) (t : Fin cfg4.N) :
    (dat4 V c).flushed 5 t = ((cfg4.win 5).blk t).view.read (Elt Ideal) (headOf V c) := by
  show (cfg4.win 5).cut (grid4.coords t) ((dat4 V c).after 5 t) = _
  rw [after4_5]
  unfold out4_5
  rw [View.canon_unit_zero zero_offsets]
  simp only [View.ld_unit_zero (S := S512x64) zero_offsets, View.ld_unit_zero (S := S64x128) zero_offsets,
    View.ld_unit_zero (S := S1x128) zero_offsets, View.ld_unit_zero (S := S128x10) zero_offsets,
    View.ld_unit_zero (S := S1x10) zero_offsets]
  rw [payload_eq, block_pooled, block_weight1, block_bias1, block_weight2, block_bias2]
  obtain ⟨-, -, -, -, -, -, -, -, -, -, e0, e1⟩ := index_zero t
  funext j
  show headOf V c j = headOf V c (((cfg4.win 5).blk t).view.emb j)
  refine congrArg _ (funext fun a => Fin.ext ?_)
  match a with
  | ⟨0, _⟩ => show (j 0).val = win4_5.index t (0 : Fin 2) * 512 + 1 * (j 0).val; omega
  | ⟨1, _⟩ => show (j 1).val = win4_5.index t (1 : Fin 2) * 10 + 1 * (j 1).val; omega

/-- An index of the output array is in the point's block iff each coordinate is in the block's range on its axis. -/
theorem mem_block (t : Fin cfg4.N) (i : S512x10.Idx) :
    i ∈ ((cfg4.win 5).blk t).view.set ↔ ∀ a : Fin 2, win4_5.index t a * S512x10.size a ≤ (i a).val ∧ (i a).val < win4_5.index t a * S512x10.size a + S512x10.size a := by
  show i ∈ ((View.whole main_v78).slice (win4_5.rect t)).set ↔ _
  rw [View.set_slice_whole, Rect.mem_set_unit]
  exact Iff.rfl

/-- The one point's block holds every index of the output array. -/
theorem covered (i : S512x10.Idx) :
    ∃ t : Fin cfg4.N, (cfg4.win 5).flush t = true ∧ i ∈ ((cfg4.win 5).blk t).view.set := by
  have t : Fin cfg4.N := ⟨0, by decide⟩
  obtain ⟨-, -, -, -, -, -, -, -, -, -, e0, e1⟩ := index_zero t
  have h0 : (i 0).val < 512 := (i 0).isLt
  have h1 : (i 1).val < 10 := (i 1).isLt
  refine ⟨t, flush4_5 t, ?_⟩
  rw [mem_block]
  intro a
  match a with
  | ⟨0, _⟩ => show win4_5.index t (0 : Fin 2) * 512 ≤ (i 0).val ∧ (i 0).val < win4_5.index t (0 : Fin 2) * 512 + 512; omega
  | ⟨1, _⟩ => show win4_5.index t (1 : Fin 2) * 10 ≤ (i 1).val ∧ (i 1).val < win4_5.index t (1 : Fin 2) * 10 + 10; omega

/-- THE OUTPUT ARRAY after the region: the head of the arrays the region finds. -/
theorem final4 (c : Dev nD) :
    (dat4 V c).arrAt 5 cfg4.N
      = addRow 512 10 (rowsTimes 512 128 10 (addRow 512 128 (rowsTimes 512 64 128 (V c main_v75) (V c main_arg7)) (V c main_v76)) (V c main_arg9)) (V c main_v77) :=
  (dat4 V c).arrAt_eq_of_cover 5 (headOf V c) (fun t _ => flushed_eq V c t) covered

end Cert.KernelIdeal.Head

end
-- ==== Proof.RefHead.lean ====
/-
  The reference's read-out head, one operation at a time, as the dense stages of the specification.

  The head is two affine maps applied to the pooled array (one row per graph):  p ↦ (p·Wf1 + bf1)·Wf2 + bf2.
  The reference computes each product with a single contraction over the shared axis (the columns of the left
  operand against the rows of the right one, no batch axes), so its entry (r, c) is Σ_k l[r, k] · r[k, c]:
  the product of the specification.  Each bias is a vector of N entries; the reference first reads it as the
  one-row array [1, N] and then repeats that row down the M rows, so the array it adds has entry (r, c) equal to
  b[c] whatever r is, and the sum is the specification's "one row added to every row".
-/
import proofs.«107864_j73959336837366_1_alg».proof.Proof.Gen.ReferenceIdeal.Read
import proofs.«107864_j73959336837366_1_alg».proof.Proof.Dense
import Idealize.ShloMosaic.Lib.Pipeline.Value
import Idealize.ShloMosaic.Lib.ValueIdx
import Idealize.ShloMosaic.PureOps.Ideal.Laws

noncomputable section

namespace Cert.ReferenceIdeal.Bridge

open Idealize.ShloMosaic Idealize.ShloMosaic.ValueIdx Idealize.ShloMosaic.StableHlo Cert.ReferenceIdeal Cert.ReferenceIdeal.Gen Cert.ReferenceIdeal.Read Cert.Dense

/-- The first product of the head: a contraction of the columns of l against the rows of r. -/
theorem dot_head1 (l : FVec Ideal S512x64 .f32) (r : FVec Ideal S64x128 .f32) :
    Host.dotGeneral dot_S512x64_S64x128_S512x128_1_0_0_1_n_n none l r = rowsTimes 512 64 128 l r := by
  funext j
  simp only [Host.dotGeneral]
  rw [Ideal.dotGeneral_apply]
  exact sum_contr _ rfl rfl lhs_main_v80_0 lhs_main_v80_1 rhs_main_v80_0 rhs_main_v80_1 l r j

/-- The second product of the head. -/
theorem dot_head2 (l : FVec Ideal S512x128 .f32) (r : FVec Ideal S128x10 .f32) :
    Host.dotGeneral dot_S512x128_S128x10_S512x10_1_0_0_1_n_n none l r = rowsTimes 512 128 10 l r := by
  funext j
  simp only [Host.dotGeneral]
  rw [Ideal.dotGeneral_apply]
  exact sum_contr _ rfl rfl lhs_main_v84_0 lhs_main_v84_1 rhs_main_v84_0 rhs_main_v84_1 l r j

/-- The bias of 128 entries, read as one row and repeated down the 512 rows, has entry (r, c) equal to b[c]. -/
theorem bias_128_apply (b : FVec Ideal S128 .f32) (p : Fin 512) (q : Fin 128) :
    broadcastInDim S512x128 ![0, 1] bcast_S1x128_S512x128_0_1 (broadcastInDim S1x128 ![1] bcast_S128_S1x128_1 b) (ix2 p q)
      = b (ix1 q) := by
  refine (val_main_v82_apply (F := Ideal) b (ix2 p q)).trans ?_
  refine (val_main_v81_apply (F := Ideal) b (idx_main_v82 (ix2 p q))).trans ?_
  congr 1
  funext a
  match a with
  | ⟨0, _⟩ => rfl

theorem add_row_128 (a : FVec Ideal S512x128 .f32) (b : FVec Ideal S128 .f32) :
    addf a (broadcastInDim S512x128 ![0, 1] bcast_S1x128_S512x128_0_1 (broadcastInDim S1x128 ![1] bcast_S128_S1x128_1 b)) = addRow 512 128 a (asRow 128 b) := by
  funext j
  obtain ⟨p, q, rfl⟩ : ∃ (p : Fin 512) (q : Fin 128), j = ix2 p q := ⟨j 0, j 1, eq_ix2 j⟩
  rw [addf_apply, bias_128_apply]
  rfl

/-- The bias of 10 entries, read as one row and repeated down the 512 rows, has entry (r, c) equal to b[c]. -/
theorem bias_10_apply (b : FVec Ideal S10 .f32) (p : Fin 512) (q : Fin 10) :
    broadcastInDim S512x10 ![0, 1] bcast_S1x10_S512x10_0_1 (broadcastInDim S1x10 ![1] bcast_S10_S1x10_1 b) (ix2 p q)
      = b (ix1 q) := by
  refine (val_main_v86_apply (F := Ideal) b (ix2 p q)).trans ?_
  refine (val_main_v85_apply (F := Ideal) b (idx_main_v86 (ix2 p q))).trans ?_
  congr 1
  funext a
  match a with
  | ⟨0, _⟩ => rfl

theorem add_row_10 (a : FVec Ideal S512x10 .f32) (b : FVec Ideal S10 .f32) :
    addf a (broadcastInDim S512x10 ![0, 1] bcast_S1x10_S512x10_0_1 (broadcastInDim S1x10 ![1] bcast_S10_S1x10_1 b)) = addRow 512 10 a (asRow 10 b) := by
  funext j
  obtain ⟨p, q, rfl⟩ : ∃ (p : Fin 512) (q : Fin 10), j = ix2 p q := ⟨j 0, j 1, eq_ix2 j⟩
  rw [addf_apply, bias_10_apply]
  rfl

end Cert.ReferenceIdeal.Bridge

end
-- ==== Proof.Chain89.lean ====
/-
  The kernel program's result, against the reference's.  The last host stretch pools the second layer's output per
  graph — the sum of the rows of each graph divided by the larger of its node count and one — by the reference's own
  operations on the same graph assignment; the last launch applies the two affine maps of the read-out in one grid
  point, which over the extended reals are the reference's two products and two bias additions.
-/
import proofs.«107864_j73959336837366_1_alg».proof.Proof.Chain47
import proofs.«107864_j73959336837366_1_alg».proof.Proof.Head
import proofs.«107864_j73959336837366_1_alg».proof.Proof.RefHead
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Cert.Dense

variable (m : (ℓ : Loc nD τ sig) → Buf (Elt Ideal) ℓ) (ρ : Dev nD → PrngReg) (c : Dev nD)

/-! ## After the fourth host stretch: the per-graph means and the two bias rows -/

theorem at8_pooled : W8 m ρ c (Proc.devRef .tc main_v75) = val_main_v79 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v75) = _
  after_results_simp
  rw [at7_hidden m ρ c, at7_arg2 m ρ c]
  rfl

theorem at8_bias1 : W8 m ρ c (Proc.devRef .tc main_v76) = asRow 128 (m ((c : Thread nD τ).loc main_arg8)) := by
  show StableHlo.after hostOps4 (W7 m ρ c) (Proc.devRef .tc main_v76) = _
  after_results_simp
  rw [at7_arg8 m ρ c]
  exact shapeCast_asRow 128 (m ((c : Thread nD τ).loc main_arg8)) _

theorem at8_bias2 : W8 m ρ c (Proc.devRef .tc main_v77) = asRow 10 (m ((c : Thread nD τ).loc main_arg10)) := by
  show StableHlo.after hostOps4 (W7 m ρ c) (Proc.devRef .tc main_v77) = _
  after_results_simp
  rw [at7_arg10 m ρ c]
  exact shapeCast_asRow 10 (m ((c : Thread nD τ).loc main_arg10)) _

theorem at8_arg7 : W8 m ρ c (Proc.devRef .tc main_arg7) = (m ((c : Thread nD τ).loc main_arg7)) :=
  (show W8 m ρ c (Proc.devRef .tc main_arg7) = W7 m ρ c (Proc.devRef .tc main_arg7) by
      show StableHlo.after hostOps4 (W7 m ρ c) (Proc.devRef .tc main_arg7) = _
      after_results_simp).trans (at7_arg7 m ρ c)
theorem at8_arg9 : W8 m ρ c (Proc.devRef .tc main_arg9) = (m ((c : Thread nD τ).loc main_arg9)) :=
  (show W8 m ρ c (Proc.devRef .tc main_arg9) = W7 m ρ c (Proc.devRef .tc main_arg9) by
      show StableHlo.after hostOps4 (W7 m ρ c) (Proc.devRef .tc main_arg9) = _
      after_results_simp).trans (at7_arg9 m ρ c)

/-! ## After the last launch: the result -/

/-- THE RESULT BUFFER at the last boundary is the reference's result stage of the same eleven arguments. -/
theorem at9_result : W9 m ρ c (Proc.devRef .tc main_v78) = val_main_v87 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W9_arr m ρ c 5).trans ?_
  rw [Cert.KernelIdeal.Head.final4 (V8 m ρ) c]
  rw [show V8 m ρ c main_v75 = val_main_v79 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from at8_pooled m ρ c,
    show V8 m ρ c main_arg7 = (m ((c : Thread nD τ).loc main_arg7)) from at8_arg7 m ρ c, show V8 m ρ c main_v76 = asRow 128 (m ((c : Thread nD τ).loc main_arg8)) from at8_bias1 m ρ c,
    show V8 m ρ c main_arg9 = (m ((c : Thread nD τ).loc main_arg9)) from at8_arg9 m ρ c, show V8 m ρ c main_v77 = asRow 10 (m ((c : Thread nD τ).loc main_arg10)) from at8_bias2 m ρ c]
  unfold val_main_v87 val_main_v86 val_main_v85 val_main_v84 val_main_v83 val_main_v82 val_main_v81 val_main_v80
  rw [Cert.ReferenceIdeal.Bridge.dot_head1, Cert.ReferenceIdeal.Bridge.add_row_128, Cert.ReferenceIdeal.Bridge.dot_head2,
    Cert.ReferenceIdeal.Bridge.add_row_10]

end Cert.Bridge

end
-- ==== Proof.lean ====
/-
  A two-layer graph convolution network with a per-graph mean read-out, computed two ways, and the claim that over the
  extended reals the two ways agree.

  The network: from node features x (50000 by 16), edges (two rows of 1600000 node numbers, sources and targets) and a
  graph number per node,
      h1  = max(A·(x·W1) + b1, 0),      h2 = max(A·(h1·W2) + b2, 0),
      out = (mean_g(h2)·Wf1 + bf1)·Wf2 + bf2,
  where A is the normalised adjacency with self-loops — (A·y)[v] = Σ over edges e with target v of w_e · y[source e],
  w_e = deg(source e)^(-1/2) · deg(target e)^(-1/2), deg a count over the targets — and mean_g(h)[g] is the sum of the
  rows of graph g divided by max(count of g, 1).

  One program (the kernel) computes the five dense stages — x·W1, the first bias and cut-off, h1·W2, the second bias and
  cut-off, and the read-out's two affine maps — in launches over row blocks, and everything edge- or graph-indexed
  (sources, targets, degrees, weights, the gather along sources, the sum into targets, the per-graph sums) by host
  operations; the other (the reference) computes every stage by host operations.  The edge- and graph-indexed host
  operations are THE SAME operations in both programs, applied to values this proof shows equal, so they are never
  opened: no property of gather, of the sum into targets or of the division is used.  Each dense stage is, on either
  side, one function of whole arrays (Dense.lean): a row-by-column sum Σ_k l[r, k]·w[k, c] — a finite sum in the
  commutative monoid of extended reals, the same whether the rows are computed in five bands of 10000 or in one piece,
  whether into a zero accumulator or with none, and whatever float format the operands pass through (a change of format
  is the identity on extended reals) — followed by the addition of a bias row and, in the layers, a maximum with zero.
  No distributivity or cancellation is needed, so the precondition (finite float inputs) is never opened, and the
  node numbers may be anything: both programs read them through the same operations.

  The frames: the two kernel programs' are generated whole; the reference's is its generated run with the result
  dropped.  The idealization rewrote nothing, so it preserves the program trivially.  For the value claim both programs'
  results are stated as the reference's result stage `val_main_v87` of the eleven arguments: the kernel program's run
  ends with its result buffer at the last boundary's contents (KernelRun.lean), which the chain Chain03 → Chain47 →
  Chain89 walks, boundary by boundary, to that stage; the reference's generated run ends at its composed term, which
  is that stage by unfolding.
-/
import proofs.«107864_j73959336837366_1_alg».proof.Defs
import proofs.«107864_j73959336837366_1_alg».proof.Proof.Gen.Kernel
import proofs.«107864_j73959336837366_1_alg».proof.Proof.Gen.Kernel.Skeleton
import proofs.«107864_j73959336837366_1_alg».proof.Proof.Gen.Kernel.Launch
import proofs.«107864_j73959336837366_1_alg».proof.Proof.Gen.Kernel.Points
import proofs.«107864_j73959336837366_1_alg».proof.Proof.Gen.Kernel.Frame
import proofs.«107864_j73959336837366_1_alg».proof.Proof.Gen.KernelIdeal
import proofs.«107864_j73959336837366_1_alg».proof.Proof.Gen.KernelIdeal.Skeleton
import proofs.«107864_j73959336837366_1_alg».proof.Proof.Gen.KernelIdeal.Launch
import proofs.«107864_j73959336837366_1_alg».proof.Proof.Gen.KernelIdeal.Points
import proofs.«107864_j73959336837366_1_alg».proof.Proof.Gen.KernelIdeal.Frame
import proofs.«107864_j73959336837366_1_alg».proof.Proof.Gen.ReferenceIdeal
import proofs.«107864_j73959336837366_1_alg».proof.Proof.Gen.ReferenceIdeal.Run
import proofs.«107864_j73959336837366_1_alg».proof.Proof.Gen.ReferenceIdeal.Read
import proofs.«107864_j73959336837366_1_alg».proof.Proof.Gen.Pre_finite_inputs
import proofs.«107864_j73959336837366_1_alg».proof.Proof.KernelRun
import proofs.«107864_j73959336837366_1_alg».proof.Proof.Chain89
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ
/-- So does the idealized kernel program. -/
theorem frame_kernel_ideal : Cert.frame_KernelIdeal := fun m ρ _ => Cert.KernelIdeal.Gen.frame m ρ
/-- So does the idealized reference: its run, the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the reference's result
    stage of the kernel program's arguments. -/
theorem algebraic : Cert.algebraic_KernelIdeal_ReferenceIdeal := by
  intro m ρ m' ρ' _ hagree
  refine ⟨fun c => Cert.ReferenceIdeal.Read.val_main_v87 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Bridge.at9_result m ρ c), (h c).2⟩) (Cert.KernelIdeal.Named.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v87_eq]
    obtain ⟨a0, a1, a2, a3, a4, a5, a6, a7, a8, a9, a10⟩ := hagree c
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
